-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 39
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelBlocks.lean ====
/-
  Each grid point's blocks, read back into the arrays the region finds.

  Point `t` of the ten is handed rows `5000·t … 5000·t + 4999` of the three row-tiled inputs (neighbour sums, features,
  reciprocal-degree column) and, unchanged from point to point, the two whole weight matrices and the bias row; it
  writes back rows `5000·t … 5000·t + 4999` of the result.  An element of a block sits in its array, on each axis, at
  block index × block size + its coordinate inside the block; the block indices are the printed maps, decided over the
  ten points.
-/
import proofs.«147031_j24249385353613_2_alg».proof.Proof.Gen.KernelIdeal.Frame
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The printed block maps, decided over the ten points -/

theorem block_map_0 : ∀ t : Fin cfg0.N, win0_0.index t (0 : Fin 2) = t.val ∧ win0_0.index t (1 : Fin 2) = 0 :=
  (by decide +kernel : ∀ t : Fin grid0.N, _)

theorem block_map_1 : ∀ t : Fin cfg0.N, win0_1.index t (0 : Fin 2) = t.val ∧ win0_1.index t (1 : Fin 2) = 0 :=
  (by decide +kernel : ∀ t : Fin grid0.N, _)

theorem block_map_2 : ∀ t : Fin cfg0.N, win0_2.index t (0 : Fin 2) = t.val ∧ win0_2.index t (1 : Fin 2) = 0 :=
  (by decide +kernel : ∀ t : Fin grid0.N, _)

theorem block_map_3 : ∀ t : Fin cfg0.N, win0_3.index t (0 : Fin 2) = 0 ∧ win0_3.index t (1 : Fin 2) = 0 :=
  (by decide +kernel : ∀ t : Fin grid0.N, _)

theorem block_map_4 : ∀ t : Fin cfg0.N, win0_4.index t (0 : Fin 2) = 0 ∧ win0_4.index t (1 : Fin 2) = 0 :=
  (by decide +kernel : ∀ t : Fin grid0.N, _)

theorem block_map_5 : ∀ t : Fin cfg0.N, win0_5.index t (0 : Fin 2) = 0 ∧ win0_5.index t (1 : Fin 2) = 0 :=
  (by decide +kernel : ∀ t : Fin grid0.N, _)

theorem block_map_6 : ∀ t : Fin cfg0.N, win0_6.index t (0 : Fin 2) = t.val ∧ win0_6.index t (1 : Fin 2) = 0 :=
  (by decide +kernel : ∀ t : Fin grid0.N, _)

/-! ## The input blocks as restrictions of their arrays

Each read is first stated for ANY array contents `f` (so that nothing about the host operations that produced the
array is opened), then said of the array the region finds. -/

/-- Point `t`'s block of the neighbour sums at `y` is the array at row `5000·t + y₀`, column `y₁`. -/
theorem read_sums (f : S50000x128.Idx → Elt Ideal .f32) (t : Fin cfg0.N) (y : S5000x128.Idx) (i : S50000x128.Idx)
    (h0 : (i 0).val = t.val * 5000 + (y 0).val) (h1 : (i 1).val = (y 1).val) :
    ((cfg0.win 0).blk t).view.read (Elt Ideal) f y = f i := by
  obtain ⟨e0, e1⟩ := block_map_0 t
  show f (((cfg0.win 0).blk t).view.emb y) = f i
  refine congrArg f (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

theorem sums_block (c : Dev nD) (t : Fin cfg0.N) (y : S5000x128.Idx) (i : S50000x128.Idx)
    (h0 : (i 0).val = t.val * 5000 + (y 0).val) (h1 : (i 1).val = (y 1).val) :
    iblk m c 0 t y = V m c main_v13 i := by
  unfold iblk
  exact read_sums (V m c main_v13) t y i h0 h1

/-- Point `t`'s block of the features at `y` is the array at row `5000·t + y₀`, column `y₁`. -/
theorem read_feats (f : S50000x128.Idx → Elt Ideal .f32) (t : Fin cfg0.N) (y : S5000x128.Idx) (i : S50000x128.Idx)
    (h0 : (i 0).val = t.val * 5000 + (y 0).val) (h1 : (i 1).val = (y 1).val) :
    ((cfg0.win 1).blk t).view.read (Elt Ideal) f y = f i := by
  obtain ⟨e0, e1⟩ := block_map_1 t
  show f (((cfg0.win 1).blk t).view.emb y) = f i
  refine congrArg f (funext fun a => Fin.ext ?_)
  match a with
  | ⟨0, _⟩ => show win0_1.index t (0 : Fin 2) * 5000 + 1 * (y 0).val = (i 0).val; omega
  | ⟨1, _⟩ => show win0_1.index t (1 : Fin 2) * 128 + 1 * (y 1).val = (i 1).val; omega

theorem feats_block (c : Dev nD) (t : Fin cfg0.N) (y : S5000x128.Idx) (i : S50000x128.Idx)
    (h0 : (i 0).val = t.val * 5000 + (y 0).val) (h1 : (i 1).val = (y 1).val) :
    iblk m c 1 t y = V m c main_arg0 i := by
  unfold iblk
  exact read_feats (V m c main_arg0) t y i h0 h1

/-- Point `t`'s block of the reciprocal-degree column at `y` is the column at row `5000·t + y₀`. -/
theorem read_degree (f : S50000x1.Idx → Elt Ideal .f32) (t : Fin cfg0.N) (y : S5000x1.Idx) (i : S50000x1.Idx)
    (h0 : (i 0).val = t.val * 5000 + (y 0).val) (h1 : (i 1).val = (y 1).val) :
    ((cfg0.win 2).blk t).view.read (Elt Ideal) f y = f i := by
  obtain ⟨e0, e1⟩ := block_map_2 t
  show f (((cfg0.win 2).blk t).view.emb y) = f i
  refine congrArg f (funext fun a => Fin.ext ?_)
  match a with
  | ⟨0, _⟩ => show win0_2.index t (0 : Fin 2) * 5000 + 1 * (y 0).val = (i 0).val; omega
  | ⟨1, _⟩ => show win0_2.index t (1 : Fin 2) * 1 + 1 * (y 1).val = (i 1).val; omega

theorem degree_block (c : Dev nD) (t : Fin cfg0.N) (y : S5000x1.Idx) (i : S50000x1.Idx)
    (h0 : (i 0).val = t.val * 5000 + (y 0).val) (h1 : (i 1).val = (y 1).val) :
    iblk m c 2 t y = V m c main_v22 i := by
  unfold iblk
  exact read_degree (V m c main_v22) t y i h0 h1

/-- Every point's block of the first transposed weight matrix is the whole matrix. -/
theorem read_left_weights (f : S128x128.Idx → Elt Ideal .f32) (t : Fin cfg0.N) (y : S128x128.Idx) (i : S128x128.Idx)
    (h0 : (i 0).val = (y 0).val) (h1 : (i 1).val = (y 1).val) :
    ((cfg0.win 3).blk t).view.read (Elt Ideal) f y = f i := by
  obtain ⟨e0, e1⟩ := block_map_3 t
  show f (((cfg0.win 3).blk t).view.emb y) = f i
  refine congrArg f (funext fun a => Fin.ext ?_)
  match a with
  | ⟨0, _⟩ => show win0_3.index t (0 : Fin 2) * 128 + 1 * (y 0).val = (i 0).val; omega
  | ⟨1, _⟩ => show win0_3.index t (1 : Fin 2) * 128 + 1 * (y 1).val = (i 1).val; omega

theorem left_weights_block (c : Dev nD) (t : Fin cfg0.N) (y : S128x128.Idx) (i : S128x128.Idx)
    (h0 : (i 0).val = (y 0).val) (h1 : (i 1).val = (y 1).val) :
    iblk m c 3 t y = V m c main_v23 i := by
  unfold iblk
  exact read_left_weights (V m c main_v23) t y i h0 h1

/-- Every point's block of the second transposed weight matrix is the whole matrix. -/
theorem read_right_weights (f : S128x128.Idx → Elt Ideal .f32) (t : Fin cfg0.N) (y : S128x128.Idx) (i : S128x128.Idx)
    (h0 : (i 0).val = (y 0).val) (h1 : (i 1).val = (y 1).val) :
    ((cfg0.win 4).blk t).view.read (Elt Ideal) f y = f i := by
  obtain ⟨e0, e1⟩ := block_map_4 t
  show f (((cfg0.win 4).blk t).view.emb y) = f i
  refine congrArg f (funext fun a => Fin.ext ?_)
  match a with
  | ⟨0, _⟩ => show win0_4.index t (0 : Fin 2) * 128 + 1 * (y 0).val = (i 0).val; omega
  | ⟨1, _⟩ => show win0_4.index t (1 : Fin 2) * 128 + 1 * (y 1).val = (i 1).val; omega

theorem right_weights_block (c : Dev nD) (t : Fin cfg0.N) (y : S128x128.Idx) (i : S128x128.Idx)
    (h0 : (i 0).val = (y 0).val) (h1 : (i 1).val = (y 1).val) :
    iblk m c 4 t y = V m c main_v24 i := by
  unfold iblk
  exact read_right_weights (V m c main_v24) t y i h0 h1

/-- Every point's block of the bias row is the whole row. -/
theorem read_bias (f : S1x128.Idx → Elt Ideal .f32) (t : Fin cfg0.N) (y : S1x128.Idx) (i : S1x128.Idx)
    (h0 : (i 0).val = (y 0).val) (h1 : (i 1).val = (y 1).val) :
    ((cfg0.win 5).blk t).view.read (Elt Ideal) f y = f i := by
  obtain ⟨e0, e1⟩ := block_map_5 t
  show f (((cfg0.win 5).blk t).view.emb y) = f i
  refine congrArg f (funext fun a => Fin.ext ?_)
  match a with
  | ⟨0, _⟩ => show win0_5.index t (0 : Fin 2) * 1 + 1 * (y 0).val = (i 0).val; omega
  | ⟨1, _⟩ => show win0_5.index t (1 : Fin 2) * 128 + 1 * (y 1).val = (i 1).val; omega

theorem bias_block (c : Dev nD) (t : Fin cfg0.N) (y : S1x128.Idx) (i : S1x128.Idx)
    (h0 : (i 0).val = (y 0).val) (h1 : (i 1).val = (y 1).val) :
    iblk m c 5 t y = V m c main_v25 i := by
  unfold iblk
  exact read_bias (V m c main_v25) t y i h0 h1

/-! ## The output block -/

/-- Any contents `f` of the result array read through point `t`'s output block at `y`: `f` at row `5000·t + y₀`, column `y₁`. -/
theorem read_out (f : S50000x128.Idx → Elt Ideal .f32) (t : Fin cfg0.N) (y : S5000x128.Idx) (i : S50000x128.Idx)
    (h0 : (i 0).val = t.val * 5000 + (y 0).val) (h1 : (i 1).val = (y 1).val) :
    ((cfg0.win 6).blk t).view.read (Elt Ideal) f y = f i := by
  obtain ⟨e0, e1⟩ := block_map_6 t
  show f (((cfg0.win 6).blk t).view.emb y) = f i
  refine congrArg f (funext fun a => Fin.ext ?_)
  match a with
  | ⟨0, _⟩ => show win0_6.index t (0 : Fin 2) * 5000 + 1 * (y 0).val = (i 0).val; omega
  | ⟨1, _⟩ => show win0_6.index t (1 : Fin 2) * 128 + 1 * (y 1).val = (i 1).val; omega

end Cert.KernelIdeal.Blocks

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.SageSpec.lean ====
/-
  The fused linear layer of SAGE mean aggregation as ONE function of six arrays, entry by entry, over the extended reals.

  With `S` the neighbour sums (50000×128), `X` the features (50000×128), `R` the reciprocal degrees (a 50000×1 column),
  `A` and `B` the two transposed weight matrices (128×128) and `β` the bias (a 1×128 row), the entry at row `i`, column `j` is
      (Σ_k S[i,k]·A[k,j]) · R[i,0]  +  Σ_k X[i,k]·B[k,j]  +  β[0,j].
-/
import Idealize.ShloMosaic.Lib.ValueIdx

noncomputable section

open scoped BigOperators

namespace SageSpec

open Idealize.ShloMosaic Idealize.ShloMosaic.ValueIdx

/-- The layer's result: the scaled neighbour product, plus the self product, plus the bias. -/
def fused (S X : FVec Ideal ⟨2, ![50000, 128]⟩ .f32) (R : FVec Ideal ⟨2, ![50000, 1]⟩ .f32)
    (A B : FVec Ideal ⟨2, ![128, 128]⟩ .f32) (β : FVec Ideal ⟨2, ![1, 128]⟩ .f32) : FVec Ideal ⟨2, ![50000, 128]⟩ .f32 :=
  fun i => (∑ k : Fin 128, S (ix2 (n0 := 50000) (n1 := 128) (i 0) k) * A (ix2 (n0 := 128) (n1 := 128) k (i 1)))
      * R (ix2 (n0 := 50000) (n1 := 1) (i 0) 0)
    + (∑ k : Fin 128, X (ix2 (n0 := 50000) (n1 := 128) (i 0) k) * B (ix2 (n0 := 128) (n1 := 128) k (i 1)))
    + β (ix2 (n0 := 1) (n1 := 128) 0 (i 1))

/-- The same at explicit coordinates. -/
theorem fused_apply (S X : FVec Ideal ⟨2, ![50000, 128]⟩ .f32) (R : FVec Ideal ⟨2, ![50000, 1]⟩ .f32)
    (A B : FVec Ideal ⟨2, ![128, 128]⟩ .f32) (β : FVec Ideal ⟨2, ![1, 128]⟩ .f32) (P : Fin 50000) (q : Fin 128) :
    fused S X R A B β (ix2 P q)
      = (∑ k : Fin 128, S (ix2 P k) * A (ix2 k q)) * R (ix2 P 0) + (∑ k : Fin 128, X (ix2 P k) * B (ix2 k q)) + β (ix2 0 q) := rfl

end SageSpec

end
-- ==== Proof.KernelBody.lean ====
/-
  What one grid point of the fused-linear kernel stores, read at an entry, over the extended reals.

  From its six loaded blocks — a block of aggregated rows `s`, the same rows `x` of the features, the rows'
  reciprocal degrees `r` (one column), the two transposed weight matrices `a`, `b` and the bias row `β` — the body
  stores, at row `p` and column `q`,
      (Σ_k s[p,k]·a[k,q]) · r[p,0]  +  Σ_k x[p,k]·b[k,q]  +  β[0,q].
  The roundings to bf16 in front of the two products are the identity at exact arithmetic; the two products accumulate
  into zero, so each is the plain sum over the contracted axis; the degree column and the bias row are broadcast along
  the other axis.
-/
import proofs.«147031_j24249385353613_2_alg».proof.Proof.Gen.KernelIdeal.Skeleton
import proofs.«147031_j24249385353613_2_alg».proof.Proof.LibMatmulIdx
import proofs.«147031_j24249385353613_2_alg».proof.Proof.SageSpec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The body's matrix product of a 5000×128 block with a 128×128 matrix, into zero, at entry `(p, q)`:
    the sum over the 128 contracted positions. -/
theorem product_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  LibMatmulIdx.matmul2_apply dot_S5000x128_S128x128_S5000x128_1_0_0_1_n_n rfl rfl
    (fun j k => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun j k => dot_S5000x128_S128x128_S5000x128_1_0_0_1_n_n.lhsIdx_val_of_single rfl j k)
    (fun j k => dot_S5000x128_S128x128_S5000x128_1_0_0_1_n_n.rhsIdx_val_of_single rfl j k)
    (fun j k => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    none l r (ix2 p q)

/-- A one-column block broadcast along the columns, at `(p, q)`: the column's entry in row `p`. -/
theorem column_apply (v : FVec Ideal S5000x1 .f32) (p : Fin 5000) (q : Fin 128) :
    broadcastTo S5000x128 v broadcasts_S5000x1_S5000x128 (ix2 p q) = v (ix2 p 0) :=
  broadcastTo_apply v broadcasts_S5000x1_S5000x128 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A one-row block broadcast along the rows, at `(p, q)`: the row's entry in column `q`. -/
theorem row_apply (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The stored value at `(p, q)`: the aggregated rows' product scaled by the row's reciprocal degree, plus the
    features' product, plus the bias. -/
theorem stored_apply (s x : Vec Ideal S5000x128 .f32) (a b : Vec Ideal S128x128 .f32) (r : Vec Ideal S5000x1 .f32)
    (β : Vec Ideal S1x128 .f32) (p : Fin 5000) (q : Fin 128) :
    k0_pay1 (F := Ideal) s x a b r β (ix2 p q)
      = (∑ k : Fin 128, s (ix2 p k) * a (ix2 k q)) * r (ix2 p 0) + (∑ k : Fin 128, x (ix2 p k) * b (ix2 k q)) + β (ix2 0 q) := by
  unfold k0_pay1
  simp only [shapeCast_self]
  rw [addf_apply, addf_apply, mulf_apply, product_apply, product_apply, column_apply, row_apply]
  rfl

/-- When the six loaded blocks are read off six arrays — the row-tiled ones at array row `P` for block row `p`, the
    weights and the bias entry for entry — the stored value at `(p, q)` is the layer's function of the arrays at `(P, q)`. -/
theorem stored_eq_fused (s x : Vec Ideal S5000x128 .f32) (a b : Vec Ideal S128x128 .f32) (r : Vec Ideal S5000x1 .f32)
    (β : Vec Ideal S1x128 .f32)
    (S X : FVec Ideal ⟨2, ![50000, 128]⟩ .f32) (R : FVec Ideal ⟨2, ![50000, 1]⟩ .f32)
    (A B : FVec Ideal ⟨2, ![128, 128]⟩ .f32) (β' : FVec Ideal ⟨2, ![1, 128]⟩ .f32)
    (p : Fin 5000) (q : Fin 128) (P : Fin 50000)
    (hs : ∀ k : Fin 128, s (ix2 p k) = S (ix2 P k)) (hx : ∀ k : Fin 128, x (ix2 p k) = X (ix2 P k))
    (hr : r (ix2 p 0) = R (ix2 P 0))
    (ha : ∀ k : Fin 128, a (ix2 k q) = A (ix2 k q)) (hb : ∀ k : Fin 128, b (ix2 k q) = B (ix2 k q))
    (hβ : β (ix2 0 q) = β' (ix2 0 q)) :
    k0_pay1 (F := Ideal) s x a b r β (ix2 p q) = SageSpec.fused S X R A B β' (ix2 P q) := by
  rw [stored_apply, SageSpec.fused_apply, hr, hβ]
  simp only [hs, hx, ha, hb]

end Cert.KernelIdeal.Body

end
-- ==== Proof.KernelValue.lean ====
/-
  The kernel's whole result array after its run, over the extended reals.

  What grid point `t` writes back is the body's stored value of its six input blocks; those blocks are rows
  `5000·t … 5000·t + 4999` of the arrays the region finds (and the whole weights and bias), so the write-back is block `t`
  of ONE function of those six arrays, `SageSpec.fused`.  The ten blocks cover the 50000 rows — row `r` lies in the block
  of point `r / 5000` —, so the array ends holding that function.
-/
import proofs.«147031_j24249385353613_2_alg».proof.Proof.Gen.KernelIdeal.Value
import proofs.«147031_j24249385353613_2_alg».proof.Proof.KernelBlocks
import proofs.«147031_j24249385353613_2_alg».proof.Proof.KernelBody
import proofs.«147031_j24249385353613_2_alg».proof.Proof.SageSpec

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The result array as one function of the six arrays the region finds. -/
abbrev whole (c : Dev nD) : S50000x128.Idx → Elt Ideal .f32 :=
  SageSpec.fused (V m c main_v13) (V m c main_arg0) (V m c main_v22) (V m c main_v23) (V m c main_v24) (V m c main_v25)

/-- Row `p` of point `t`'s blocks is row `5000·t + p` of the arrays. -/
def row (t : Fin cfg0.N) (p : Fin 5000) : Fin 50000 :=
  ⟨t.val * 5000 + p.val, by have ht : t.val < 10 := t.isLt; have hp := p.isLt; omega⟩

/-- WHAT POINT `t` WRITES BACK is block `t` of `whole`. -/
theorem flushed_eq (c : Dev nD) (t : Fin cfg0.N) :
    (dats m 0 c).flushed 6 t = ((cfg0.win 6).blk t).view.read (Elt Ideal) (whole m c) := by
  rw [Value.flushed6]
  unfold out0_6
  rw [View.canon_unit_zero origin]
  simp only [View.ld_unit_zero (S := S5000x128) origin, View.ld_unit_zero (S := S128x128) origin,
    View.ld_unit_zero (S := S5000x1) origin, View.ld_unit_zero (S := S1x128) origin]
  funext j
  obtain ⟨p, q, rfl⟩ : ∃ (p : Fin 5000) (q : Fin 128), j = ix2 p q := ⟨j 0, j 1, eq_ix2 j⟩
  refine Eq.trans ?_ (Blocks.read_out (whole m c) t (ix2 p q) (ix2 (row t p) q) rfl rfl).symm
  show k0_pay1 (iblk m c 0 t) (iblk m c 1 t) (iblk m c 3 t) (iblk m c 4 t) (iblk m c 2 t) (iblk m c 5 t) (ix2 p q) = _
  exact Body.stored_eq_fused (iblk m c 0 t) (iblk m c 1 t) (iblk m c 3 t) (iblk m c 4 t) (iblk m c 2 t) (iblk m c 5 t)
    (V m c main_v13) (V m c main_arg0) (V m c main_v22) (V m c main_v23) (V m c main_v24) (V m c main_v25) p q (row t p)
    (fun k => Blocks.sums_block m c t (ix2 p k) (ix2 (row t p) k) rfl rfl)
    (fun k => Blocks.feats_block m c t (ix2 p k) (ix2 (row t p) k) rfl rfl)
    (Blocks.degree_block m c t (ix2 p 0) (ix2 (row t p) 0) rfl rfl)
    (fun k => Blocks.left_weights_block m c t (ix2 k q) (ix2 k q) rfl rfl)
    (fun k => Blocks.right_weights_block m c t (ix2 k q) (ix2 k q) rfl rfl)
    (Blocks.bias_block m c t (ix2 0 q) (ix2 0 q) rfl rfl)

/-- An index of the array is in point `t`'s output block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v26).slice (win0_6.rect t)).set ↔ _
  rw [View.set_slice_whole, Rect.mem_set_unit]
  exact Iff.rfl

/-- THE COVER: row `r` of the result lies in the block of point `r / 5000`, and every point writes back. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨e0, e1⟩ := Blocks.block_map_6 t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE ARRAY after the run is `whole`. -/
theorem final (c : Dev nD) : (dats m 0 c).arrAt 6 cfg0.N = whole m c :=
  (dats m 0 c).arrAt_eq_of_cover 6 (whole m c) (fun t _ => flushed_eq m c t) cover

/-- The kernel's run re-posted: the result array at the layer's function of the six arrays the region finds, the
    arguments unchanged. -/
theorem run : θ_run defs (onTc (τ := τ) (main (F := Ideal))) ⟨m, fun _ => 0, ρ⟩ fun r => ∀ c : Dev nD,
      r.2.mem ((c : Thread nD τ).loc main_v26) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.HostPrefix.lean ====
/-
  The six arrays the kernel's region finds, in the reference's words.

  Before its one region the kernel's program runs, on the host, the same gather and the same two scatter-adds as the
  reference (neighbour sums and neighbour counts), the same maximum with one, and then a reciprocal, two transposes and
  two reshapes.  So the neighbour sums the region finds ARE the reference's, the two transposed weight matrices ARE the
  reference's, and the remaining two arrays are read at an entry: the reciprocal column at row `P` is `1 / d_P` with
  `d_P` the reference's own divisor, and the bias row at column `q` is the bias at `q`.  The gather and the scatters are
  never opened: both programs apply the same operations to the same arguments.
-/
import proofs.«147031_j24249385353613_2_alg».proof.Proof.Gen.KernelIdeal.Frame
import proofs.«147031_j24249385353613_2_alg».proof.Proof.Gen.ReferenceIdeal.Read
import Idealize.ShloMosaic.Lib.IdealHost
import Idealize.ShloMosaic.Lib.Pipeline.Value
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The neighbour sums the region finds are the reference's scatter-added rows of the same arguments. -/
theorem sums_eq : (V m c main_v13 : S50000x128.Idx → EReal)
    = Cert.ReferenceIdeal.Read.val_main_v13 (F := Ideal) (m ((c : Thread nD τ).loc main_arg0)) (m ((c : Thread nD τ).loc main_arg1)) := by
  dsimp only [V, hostOps0]
  after_results
  rfl

/-- The first transposed weight matrix the region finds is the reference's transpose of the same argument. -/
theorem left_weights_eq : (V m c main_v23 : S128x128.Idx → EReal)
    = Cert.ReferenceIdeal.Read.val_main_v23 (F := Ideal) (m ((c : Thread nD τ).loc main_arg2)) := by
  dsimp only [V, hostOps0]
  after_results
  rfl

/-- The second transposed weight matrix the region finds is the reference's transpose of the same argument. -/
theorem right_weights_eq : (V m c main_v24 : S128x128.Idx → EReal)
    = Cert.ReferenceIdeal.Read.val_main_v28 (F := Ideal) (m ((c : Thread nD τ).loc main_arg3)) := by
  dsimp only [V, hostOps0]
  after_results
  rfl

/-- The reciprocal column the region finds: one over the reference's divisor (the maximum of the neighbour count and
    one), laid out as a column. -/
theorem degree_eq : (V m c main_v22 : S50000x1.Idx → EReal)
    = shapeCast S50000x1 (Host.divf (F := Ideal) (s := S50000) (φ := .f32) (Cert.ReferenceIdeal.Read.val_main_v18 (F := Ideal) : FVec Ideal S50000 .f32)
        (Cert.ReferenceIdeal.Read.val_main_v19 (F := Ideal) (m ((c : Thread nD τ).loc main_arg1)) : FVec Ideal S50000 .f32))
        shapeCasts_S50000_S50000x1 := by
  dsimp only [V, hostOps0]
  after_results
  rfl

/-- The host's quotient of two vectors at an entry is the ideal quotient of the entries. -/
theorem host_div_apply {s : Shape} (a b : FVec Ideal s .f32) (i : s.Idx) : Host.divf a b i = Ideal.div (a i) (b i) := rfl

/-- The reciprocal column at row `P`: one over row `P`'s divisor. -/
theorem degree_apply (P : Fin 50000) :
    V m c main_v22 (ix2 P 0)
      = Ideal.div 1 (Cert.ReferenceIdeal.Read.val_main_v19 (F := Ideal) (m ((c : Thread nD τ).loc main_arg1)) (ix1 P)) := by
  refine (congrFun (degree_eq m c) (ix2 P 0)).trans ?_
  refine (shapeCast_apply _ shapeCasts_S50000_S50000x1 (ix2 P 0) (ix1 P) (by
    rewrite [Shape.rowMajor_val_two, Shape.rowMajor_val_one]; show P.val = P.val * 1 + 0; omega)).trans ?_
  refine (host_div_apply _ _ _).trans ?_
  rw [Cert.ReferenceIdeal.Read.val_main_v18_apply, Cert.ReferenceIdeal.Read.val_main_cst_3_apply, Ideal.ofBits_def,
    Ideal.ofBits_one_f32]

/-- The bias row the region finds is the bias argument laid out as a row. -/
theorem bias_eq : (V m c main_v25 : S1x128.Idx → EReal)
    = shapeCast S1x128 (m ((c : Thread nD τ).loc main_arg4)) shapeCasts_S128_S1x128 := by
  dsimp only [V, hostOps0]
  after_results
  rfl

/-- The bias row at column `q`: the bias at `q`. -/
theorem bias_apply (q : Fin 128) : V m c main_v25 (ix2 0 q) = m ((c : Thread nD τ).loc main_arg4) (ix1 q) := by
  refine (congrFun (bias_eq m c) (ix2 0 q)).trans ?_
  exact shapeCast_apply _ shapeCasts_S128_S1x128 (ix2 0 q) (ix1 q) (by
    rewrite [Shape.rowMajor_val_two, Shape.rowMajor_val_one]; show q.val = 0 * 128 + q.val; omega)

end Cert.KernelIdeal.HostPrefix

end
-- ==== Proof.LibMeanScale.lean ====
/-
  Scaling a sum of products by a reciprocal, on the extended reals: the law behind a mean taken before or after a
  linear map.

  One side multiplies a finished sum of products by the reciprocal of a divisor, `(Σ_k s_k · w_k) · (1 / d)`; the
  other divides every left factor first, `Σ_k (s_k / d) · w_k` (the ideal quotient `Ideal.div`).  When `1 ≤ d` — a
  divisor of the form `max(count, 1)` — the two agree for ALL extended reals `s_k`, `w_k`: the divisor is not zero, its
  inverse `d⁻¹` is a nonnegative extended real that is never `⊤` (`⊤⁻¹ = 0`), and a product with such a factor
  distributes over any finite sum of extended reals, infinite summands included.  No finiteness is assumed.
-/
import Idealize.ShloMosaic.PureOps.Ideal

noncomputable section

open scoped BigOperators

namespace LibMeanScale

open Idealize.ShloMosaic

/-- A finite sum of extended reals times a nonnegative factor that is not `⊤` is the sum of the products. -/
theorem sum_mul_of_nonneg_ne_top {ι : Type} (s : Finset ι) (f : ι → EReal) {t : EReal} (h0 : 0 ≤ t) (ht : t ≠ ⊤) :
    (∑ k ∈ s, f k) * t = ∑ k ∈ s, f k * t := by
  classical
  induction s using Finset.induction_on with
  | empty => simp
  | insert a s ha ih =>
    rw [Finset.sum_insert ha, Finset.sum_insert ha, EReal.right_distrib_of_nonneg_of_ne_top h0 ht, ih]

/-- The ideal quotient by a divisor that is at least one is the product with the divisor's inverse. -/
theorem div_of_one_le {d : EReal} (hd : 1 ≤ d) (x : EReal) : Ideal.div x d = x * d⁻¹ := by
  have hne : d ≠ 0 := (lt_of_lt_of_le zero_lt_one hd).ne'
  rw [Ideal.div, if_neg hne]

/-- Scaling a row product by the reciprocal of `d ≥ 1` afterwards is dividing every left factor by `d` first. -/
theorem mean_law {K : ℕ} (s w : Fin K → EReal) {d : EReal} (hd : 1 ≤ d) :
    (∑ k, s k * w k) * Ideal.div 1 d = ∑ k, Ideal.div (s k) d * w k := by
  have h0 : 0 ≤ d⁻¹ := EReal.inv_nonneg_of_nonneg (le_trans zero_le_one hd)
  have ht : d⁻¹ ≠ ⊤ := (EReal.inv_lt_top d).ne
  rw [div_of_one_le hd, one_mul, sum_mul_of_nonneg_ne_top _ _ h0 ht]
  refine Finset.sum_congr rfl fun k _ => ?_
  rw [div_of_one_le hd, mul_right_comm]

end LibMeanScale

end
-- ==== Proof.RefValue.lean ====
/-
  The reference's result, entry by entry, is the fused layer's function of its own intermediate arrays.

  Read at row `i`, column `j`, the reference computes
      (Σ_k (S[i,k] / d_i) · W_l[j,k]  +  b[j])  +  Σ_k x[i,k] · W_r[j,k],      d_i = max(count_i, 1),
  with `S` the scatter-added neighbour rows and `count` the scatter-added ones.  The kernel's form of the same layer is
      (Σ_k S[i,k] · W_l[j,k]) · (1 / d_i)  +  Σ_k x[i,k] · W_r[j,k]  +  b[j].
  The two agree on the extended reals: `d_i ≥ 1` because it is a maximum with one, so the scaling law of `LibMeanScale`
  applies whatever `S`, the weights and the count are, and the three summands are then only regrouped.  The neighbour
  sums and the count stay the opaque arrays the reference's own operations produce: neither the gather nor the two
  scatters is opened.
-/
import proofs.«147031_j24249385353613_2_alg».proof.Proof.Gen.ReferenceIdeal.Read
import proofs.«147031_j24249385353613_2_alg».proof.Proof.SageSpec
import proofs.«147031_j24249385353613_2_alg».proof.Proof.LibMeanScale
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S50000x128, .f32⟩ : BufTy).Contents (Elt Ideal)) (x1 : (⟨S2x800000, .i32⟩ : BufTy).Contents (Elt Ideal))
  (x2 x3 : (⟨S128x128, .f32⟩ : BufTy).Contents (Elt Ideal)) (x4 : (⟨S128, .f32⟩ : BufTy).Contents (Elt Ideal))

/-- The divisor of row `P`: the maximum of its neighbour count and one. -/
abbrev degree (P : Fin 50000) : EReal := val_main_v19 (F := Ideal) x1 (ix1 P)

/-- It is at least one. -/
theorem one_le_degree (P : Fin 50000) : 1 ≤ degree x1 P := by
  show 1 ≤ val_main_v19 (F := Ideal) x1 (ix1 P)
  rw [val_main_v19_apply, val_main_v18_apply, val_main_cst_3_apply]
  show (1 : EReal) ≤ max _ (Ideal.ofBits .f32 0x3F800000#32)
  rw [Ideal.ofBits_one_f32]
  exact le_max_right _ _

/-! ## The composed index functions of the generated reads, at explicit coordinates -/

theorem lidx24 (P : Fin 50000) (q k : Fin 128) : lidx_main_v24 (ix2 P q) k = ix2 P k :=
  funext fun a => Fin.ext (by match a with | ⟨0, _⟩ => rfl | ⟨1, _⟩ => rfl)
theorem ridx24 (P : Fin 50000) (q k : Fin 128) : ridx_main_v24 (ix2 P q) k = ix2 k q :=
  funext fun a => Fin.ext (by match a with | ⟨0, _⟩ => rfl | ⟨1, _⟩ => rfl)
theorem lidx29 (P : Fin 50000) (q k : Fin 128) : lidx_main_v29 (ix2 P q) k = ix2 P k :=
  funext fun a => Fin.ext (by match a with | ⟨0, _⟩ => rfl | ⟨1, _⟩ => rfl)
theorem ridx29 (P : Fin 50000) (q k : Fin 128) : ridx_main_v29 (ix2 P q) k = ix2 k q :=
  funext fun a => Fin.ext (by match a with | ⟨0, _⟩ => rfl | ⟨1, _⟩ => rfl)
theorem idx_degree (P : Fin 50000) (k : Fin 128) : idx_main_v20 (idx_main_v21 (ix2 P k)) = ix1 P :=
  funext fun a => Fin.ext (by match a with | ⟨0, _⟩ => rfl)
theorem idx_bias (P : Fin 50000) (q : Fin 128) : idx_main_v25 (idx_main_v26 (ix2 P q)) = ix1 q :=
  funext fun a => Fin.ext (by match a with | ⟨0, _⟩ => rfl)

/-- The divided neighbour sums at `(P, k)`: the sum there over row `P`'s divisor. -/
theorem mean_apply (P : Fin 50000) (k : Fin 128) :
    val_main_v22 (F := Ideal) x0 x1 (ix2 P k) = Ideal.div (val_main_v13 (F := Ideal) x0 x1 (ix2 P k)) (degree x1 P) := by
  rw [val_main_v22_apply, val_main_v21_apply, val_main_v20_apply, idx_degree]
  rfl

/-- THE BRIDGE.  For six arrays that are, entry for entry, what the reference's own operations produce — the neighbour
    sums `S`, the features `X`, a column `R` of reciprocal divisors `1 / d_i`, the two transposed weight matrices and a
    bias row `β` —, the fused layer's function of them is the reference's result. -/
theorem fused_eq_reference (S X : FVec Ideal ⟨2, ![50000, 128]⟩ .f32) (R : FVec Ideal ⟨2, ![50000, 1]⟩ .f32)
    (A B : FVec Ideal ⟨2, ![128, 128]⟩ .f32) (β : FVec Ideal ⟨2, ![1, 128]⟩ .f32)
    (hS : S = val_main_v13 (F := Ideal) x0 x1) (hX : X = x0)
    (hR : ∀ P : Fin 50000, R (ix2 P 0) = Ideal.div 1 (degree x1 P))
    (hA : A = val_main_v23 (F := Ideal) x2) (hB : B = val_main_v28 (F := Ideal) x3)
    (hβ : ∀ q : Fin 128, β (ix2 0 q) = x4 (ix1 q)) :
    SageSpec.fused S X R A B β = val_main_v30 (F := Ideal) x0 x1 x2 x3 x4 := by
  subst hS hX hA hB
  funext i
  obtain ⟨P, q, rfl⟩ : ∃ (P : Fin 50000) (q : Fin 128), i = ix2 P q := ⟨i 0, i 1, eq_ix2 i⟩
  rw [SageSpec.fused_apply, hR, hβ, LibMeanScale.mean_law _ _ (one_le_degree x1 P)]
  rw [val_main_v30_apply, val_main_v27_apply, val_main_v24_apply, val_main_v29_apply, val_main_v26_apply, val_main_v25_apply,
    idx_bias]
  simp only [lidx24, ridx24, lidx29, ridx29, mean_apply]
  exact add_right_comm _ _ _

end Cert.ReferenceIdeal.RefValue

end
-- ==== Proof.lean ====
/-
  SAGE mean aggregation followed by its two linear maps: a Pallas kernel against its jnp reference, on the extended reals.

  Both programs first form, on the host and by the SAME operations, the neighbour sums `S` (a gather of the source rows
  scatter-added onto the destination rows) and the neighbour counts, and the divisor `d_i = max(count_i, 1)`.
  The reference then computes, at row `i` and column `j`,
      (Σ_k (S[i,k] / d_i) · W_l[j,k]  +  b[j])  +  Σ_k x[i,k] · W_r[j,k];
  the kernel is handed `S`, `x`, the column `1 / d_i`, the two transposed weight matrices and the bias as a row, and
  computes, ten blocks of 5000 rows at a time,
      (Σ_k S[i,k] · W_l[j,k]) · (1 / d_i)  +  Σ_k x[i,k] · W_r[j,k]  +  b[j].
  (Its roundings to bf16 in front of the two products are the identity at exact arithmetic.)

  The two agree because `d_i ≥ 1`: the divisor is never zero, its inverse is a nonnegative extended real below `⊤`, and a
  product with such a factor distributes over any sum of extended reals; the three summands are then only regrouped.
  No finiteness of an input is used, and the gather and the scatters are never opened.

  The parts: `LibMeanScale` (the scaling law), `SageSpec` (the layer as one function of six arrays), `KernelBody` (the body's
  stored value at an entry), `KernelBlocks` (each point's blocks as rows of the arrays), `KernelValue` (the kernel's result
  array is that function of the arrays its region finds), `HostPrefix` (those arrays in the reference's words) and
  `RefValue` (the reference's result is the same function).  Here: the frames, and the two runs side by side.
-/
import proofs.«147031_j24249385353613_2_alg».proof.Defs
import proofs.«147031_j24249385353613_2_alg».proof.Proof.Gen.Kernel
import proofs.«147031_j24249385353613_2_alg».proof.Proof.Gen.Kernel.Skeleton
import proofs.«147031_j24249385353613_2_alg».proof.Proof.Gen.Kernel.Launch
import proofs.«147031_j24249385353613_2_alg».proof.Proof.Gen.Kernel.Points
import proofs.«147031_j24249385353613_2_alg».proof.Proof.Gen.Kernel.Frame
import proofs.«147031_j24249385353613_2_alg».proof.Proof.Gen.KernelIdeal
import proofs.«147031_j24249385353613_2_alg».proof.Proof.Gen.KernelIdeal.Skeleton
import proofs.«147031_j24249385353613_2_alg».proof.Proof.Gen.KernelIdeal.Launch
import proofs.«147031_j24249385353613_2_alg».proof.Proof.Gen.KernelIdeal.Points
import proofs.«147031_j24249385353613_2_alg».proof.Proof.Gen.KernelIdeal.Frame
import proofs.«147031_j24249385353613_2_alg».proof.Proof.Gen.ReferenceIdeal
import proofs.«147031_j24249385353613_2_alg».proof.Proof.Gen.Pre_finite_inputs
import proofs.«147031_j24249385353613_2_alg».proof.Proof.Gen.KernelIdeal.Value
import proofs.«147031_j24249385353613_2_alg».proof.Proof.Gen.ReferenceIdeal.Run
import proofs.«147031_j24249385353613_2_alg».proof.Proof.Gen.ReferenceIdeal.Read
import proofs.«147031_j24249385353613_2_alg».proof.Proof.KernelValue
import proofs.«147031_j24249385353613_2_alg».proof.Proof.HostPrefix
import proofs.«147031_j24249385353613_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel : Cert.frame_Kernel := fun m ρ _ => Cert.Kernel.Gen.frame m ρ

/-- So does the kernel read at exact arithmetic. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel. -/
theorem preserves : Cert.preserves_Kernel_KernelIdeal := trivial

/-- From memories that agree on the five arguments, the kernel's result array ends at the layer's function of the six
    arrays its region finds, and the reference's result at its own composed term; the first is the second
    (`HostPrefix`, `RefValue.fused_eq_reference`). -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v30_eq, (hagree c).1, (hagree c).2.1, (hagree c).2.2.1, (hagree c).2.2.2.1,
    (hagree c).2.2.2.2]
  exact (Cert.ReferenceIdeal.RefValue.fused_eq_reference _ _ _ _ _ _ _ _ _ _ _
    (Cert.KernelIdeal.HostPrefix.sums_eq m c) (Cert.KernelIdeal.Gen.V_main_arg0 m c)
    (Cert.KernelIdeal.HostPrefix.degree_apply m c) (Cert.KernelIdeal.HostPrefix.left_weights_eq m c)
    (Cert.KernelIdeal.HostPrefix.right_weights_eq m c) (Cert.KernelIdeal.HostPrefix.bias_apply m c)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
